-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096 .f32) (main_arg5 : FVec F S4096x1024 .f32) (main_arg6 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S512x1024 : Shape := ⟨2, ![512, 1024]⟩
abbrev S512x4096 : Shape := ⟨2, ![512, 4096]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S1024x4096, .bf16⟩
  | .hbm, ⟨11, _⟩ => ⟨S4096, .f32⟩
  | .hbm, ⟨12, _⟩ => ⟨S1x4096, .f32⟩
  | .hbm, ⟨13, _⟩ => ⟨S8192x1024, .f32⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.Spec.lean ====
/-
  The LSTM cell step as ONE function of the seven argument arrays, index by index, on the extended reals.

  For batch row `r` and stacked gate column `g` (the 4096 columns are four blocks of 1024: input, forget, output,
  candidate) the pre-activation is

      z r g = Σₖ x[r,k]·Wx[g,k] + Σₖ h[r,k]·Wh[g,k] + bx[g] + bh[g].

  With σ(z) = 1 / (1 + e^(−z)) the new cell state and the new hidden state at (r, j) are

      c' = σ(z r (1024 + j)) · c[r,j] + σ(z r j) · tanh (z r (3072 + j)),
      h' = σ(z r (2048 + j)) · tanh c'.

  The two programs differ only in how the four summands of `z` are grouped; `+` on the extended reals is commutative
  and associative at the infinities too, so no finiteness is used.
-/
import Idealize.ShloMosaic.PureOps.Ideal
import Idealize.ShloMosaic.Lib.ValueIdx

noncomputable section

namespace Cert.LstmCell

open Idealize.ShloMosaic Idealize.ShloMosaic.ValueIdx

/-- A [batch, feature] array: 8192 rows of 1024. -/
abbrev SAct : Shape := ⟨2, ![8192, 1024]⟩
/-- A stacked weight matrix: 4096 gate columns, each a row of 1024 input features. -/
abbrev SWgt : Shape := ⟨2, ![4096, 1024]⟩
/-- A stacked bias: one entry per gate column. -/
abbrev SBias : Shape := ⟨1, ![4096]⟩

/-- Column `j` of gate block `q` (0 input, 1 forget, 2 output, 3 candidate) among the 4096 stacked columns. -/
def gcol (q : Fin 4) (j : Fin 1024) : Fin 4096 :=
  ⟨q.val * 1024 + j.val, by have := q.isLt; have := j.isLt; omega⟩

theorem gcol_val (q : Fin 4) (j : Fin 1024) : (gcol q j).val = q.val * 1024 + j.val := rfl

/-- The pre-activation of gate column `g` on batch row `r`: the two matrix products first, then the two biases
    added to each other — the grouping in which the kernel adds them. -/
def preact (x h : SAct.Idx → EReal) (wx wh : SWgt.Idx → EReal) (bx bh : SBias.Idx → EReal)
    (r : Fin 8192) (g : Fin 4096) : EReal :=
  (∑ k : Fin 1024, x (ix2 r k) * wx (ix2 g k) + ∑ k : Fin 1024, h (ix2 r k) * wh (ix2 g k))
    + (bx (ix1 g) + bh (ix1 g))

/-- The same four summands added left to right as the reference does — first product, first bias, second product,
    second bias — give the same extended real: commutativity and associativity of `+` only. -/
theorem preact_leftToRight (x h : SAct.Idx → EReal) (wx wh : SWgt.Idx → EReal) (bx bh : SBias.Idx → EReal)
    (r : Fin 8192) (g : Fin 4096) :
    ((∑ k : Fin 1024, x (ix2 r k) * wx (ix2 g k) + bx (ix1 g)) + ∑ k : Fin 1024, h (ix2 r k) * wh (ix2 g k))
        + bh (ix1 g)
      = preact x h wx wh bx bh r g := by
  unfold preact
  rw [add_add_add_comm, ← add_assoc]

/-- The new cell state: forget gate times the old state plus input gate times the candidate. -/
def cellState (x c h : SAct.Idx → EReal) (wx : SWgt.Idx → EReal) (bx : SBias.Idx → EReal)
    (wh : SWgt.Idx → EReal) (bh : SBias.Idx → EReal) : SAct.Idx → EReal := fun i =>
  Ideal.logistic (preact x h wx wh bx bh (i 0) (gcol 1 (i 1))) * c i
    + Ideal.logistic (preact x h wx wh bx bh (i 0) (gcol 0 (i 1)))
        * Ideal.tanh (preact x h wx wh bx bh (i 0) (gcol 3 (i 1)))

/-- The new hidden state: output gate times `tanh` of the new cell state. -/
def hidden (x c h : SAct.Idx → EReal) (wx : SWgt.Idx → EReal) (bx : SBias.Idx → EReal)
    (wh : SWgt.Idx → EReal) (bh : SBias.Idx → EReal) : SAct.Idx → EReal := fun i =>
  Ideal.logistic (preact x h wx wh bx bh (i 0) (gcol 2 (i 1))) * Ideal.tanh (cellState x c h wx bx wh bh i)

end Cert.LstmCell

end
-- ==== Proof.OutBlocks.lean ====
/-
  What the body leaves in the two output tiles, entry by entry, in terms of the pre-activation payload.

  At row `p`, column `j` of the [512, 1024] tile, with `z q` the pre-activation payload at (p, q):

      first store  (new cell state):   σ(z (1024 + j)) · c[p,j] + σ(z j) · tanh (z (3072 + j)),
      second store (new hidden state): σ(z (2048 + j)) · tanh (the first store's entry).

  The four gate blocks are 1024-column slices of the [512, 4096] payload; each store covers its whole tile.
-/
import proofs.«146247_j12197707120743_2_alg».proof.Proof.Gen.KernelIdeal.Value
import proofs.«146247_j12197707120743_2_alg».proof.Proof.Spec

noncomputable section

namespace Cert.LstmCell.Body

open Cert.KernelIdeal Cert.KernelIdeal.Gen Cert.LstmCell
open Idealize.ShloMosaic Idealize.ShloMosaic.ValueIdx

theorem zeroOffsets : (![0, 0] : Fin 2 → Nat) = fun _ => 0 := funext fun a => by fin_cases a <;> rfl

section
variable (x0 x1 x2 : FVec Ideal S512x1024 .f32) (x3 x4 : FVec Ideal S1024x4096 .bf16) (x5 : FVec Ideal S1x4096 .f32)
  (p : Fin 512) (j : Fin 1024)

/-- THE FIRST STORE at (p, j): forget gate times the old cell state plus input gate times the candidate.
    (`x0` … `x5` are the six input windows' tiles in window order: x, c, h, WxT, WhT, b.) -/
theorem cellOut_at :
    out0_6 (F := Ideal) x0 x1 x2 x3 x4 x5 (ix2 p j)
      = Ideal.logistic (k0_pay1 (F := Ideal) x0 x2 x3 x4 x5 (ix2 p (gcol 1 j))) * x1 (ix2 p j)
        + Ideal.logistic (k0_pay1 (F := Ideal) x0 x2 x3 x4 x5 (ix2 p (gcol 0 j)))
            * Ideal.tanh (k0_pay1 (F := Ideal) x0 x2 x3 x4 x5 (ix2 p (gcol 3 j))) := by
  have e0 : Value.ix6_0 (ix2 p j) = ix2 p (gcol 1 j) := funext fun a => Fin.ext (by
    match a with
    | ⟨0, _⟩ => rfl
    | ⟨1, _⟩ => show j.val + 1024 = 1 * 1024 + j.val; omega)
  have e1 : Value.ix6_1 (ix2 p j) = ix2 p j := funext fun a => Fin.ext (by
    match a with
    | ⟨0, _⟩ => rfl
    | ⟨1, _⟩ => rfl)
  have e2 : Value.ix6_2 (ix2 p j) = ix2 p (gcol 0 j) := funext fun a => Fin.ext (by
    match a with
    | ⟨0, _⟩ => rfl
    | ⟨1, _⟩ => show j.val = 0 * 1024 + j.val; omega)
  have e3 : Value.ix6_3 (ix2 p j) = ix2 p (gcol 3 j) := funext fun a => Fin.ext (by
    match a with
    | ⟨0, _⟩ => rfl
    | ⟨1, _⟩ => show j.val + 3072 = 3 * 1024 + j.val; omega)
  unfold out0_6
  simp only [View.ld_unit_zero (S := S512x1024) zeroOffsets, View.ld_unit_zero (S := S1024x4096) zeroOffsets,
    View.ld_unit_zero (S := S1x4096) zeroOffsets]
  rw [Value.canon6_eq]
  show FloatOps.addf (FloatOps.mulf (FloatOps.logistic (k0_pay1 (F := Ideal) x0 x2 x3 x4 x5 (Value.ix6_0 (ix2 p j))))
        (x1 (Value.ix6_1 (ix2 p j))))
      (FloatOps.mulf (FloatOps.logistic (k0_pay1 (F := Ideal) x0 x2 x3 x4 x5 (Value.ix6_2 (ix2 p j))))
        (FloatOps.tanh (k0_pay1 (F := Ideal) x0 x2 x3 x4 x5 (Value.ix6_3 (ix2 p j))))) = _
  rw [e0, e1, e2, e3]
  rfl

/-- THE SECOND STORE at (p, j): output gate times `tanh` of the new cell state. -/
theorem hiddenOut_at :
    out0_7 (F := Ideal) x0 x1 x2 x3 x4 x5 (ix2 p j)
      = Ideal.logistic (k0_pay1 (F := Ideal) x0 x2 x3 x4 x5 (ix2 p (gcol 2 j)))
          * Ideal.tanh (Ideal.logistic (k0_pay1 (F := Ideal) x0 x2 x3 x4 x5 (ix2 p (gcol 1 j))) * x1 (ix2 p j)
              + Ideal.logistic (k0_pay1 (F := Ideal) x0 x2 x3 x4 x5 (ix2 p (gcol 0 j)))
                  * Ideal.tanh (k0_pay1 (F := Ideal) x0 x2 x3 x4 x5 (ix2 p (gcol 3 j)))) := by
  have e0 : Value.ix7_0 (ix2 p j) = ix2 p (gcol 2 j) := funext fun a => Fin.ext (by
    match a with
    | ⟨0, _⟩ => rfl
    | ⟨1, _⟩ => show j.val + 2048 = 2 * 1024 + j.val; omega)
  have e1 : Value.ix7_1 (ix2 p j) = ix2 p (gcol 1 j) := funext fun a => Fin.ext (by
    match a with
    | ⟨0, _⟩ => rfl
    | ⟨1, _⟩ => show j.val + 1024 = 1 * 1024 + j.val; omega)
  have e2 : Value.ix7_2 (ix2 p j) = ix2 p j := funext fun a => Fin.ext (by
    match a with
    | ⟨0, _⟩ => rfl
    | ⟨1, _⟩ => rfl)
  have e3 : Value.ix7_3 (ix2 p j) = ix2 p (gcol 0 j) := funext fun a => Fin.ext (by
    match a with
    | ⟨0, _⟩ => rfl
    | ⟨1, _⟩ => show j.val = 0 * 1024 + j.val; omega)
  have e4 : Value.ix7_4 (ix2 p j) = ix2 p (gcol 3 j) := funext fun a => Fin.ext (by
    match a with
    | ⟨0, _⟩ => rfl
    | ⟨1, _⟩ => show j.val + 3072 = 3 * 1024 + j.val; omega)
  unfold out0_7
  simp only [View.ld_unit_zero (S := S512x1024) zeroOffsets, View.ld_unit_zero (S := S1024x4096) zeroOffsets,
    View.ld_unit_zero (S := S1x4096) zeroOffsets]
  rw [Value.canon7_eq]
  show FloatOps.mulf (FloatOps.logistic (k0_pay1 (F := Ideal) x0 x2 x3 x4 x5 (Value.ix7_0 (ix2 p j))))
      (FloatOps.tanh (FloatOps.addf
        (FloatOps.mulf (FloatOps.logistic (k0_pay1 (F := Ideal) x0 x2 x3 x4 x5 (Value.ix7_1 (ix2 p j))))
          (x1 (Value.ix7_2 (ix2 p j))))
        (FloatOps.mulf (FloatOps.logistic (k0_pay1 (F := Ideal) x0 x2 x3 x4 x5 (Value.ix7_3 (ix2 p j))))
          (FloatOps.tanh (k0_pay1 (F := Ideal) x0 x2 x3 x4 x5 (Value.ix7_4 (ix2 p j))))))) = _
  rw [e0, e1, e2, e3, e4]
  rfl

end

end Cert.LstmCell.Body

end
-- ==== Proof.GatePayload.lean ====
/-
  The kernel body's stacked pre-activation, read at one entry of the [512, 4096] block.

  At row `p` of the batch tile and gate column `q` the body computes

      Σₖ x[p,k]·WxT[k,q] + Σₖ h[p,k]·WhT[k,q] + b[0,q]

  where `x`, `h` are the tile's rows of the two activations (their rounding to bf16 is the identity on the extended
  reals), `WxT`, `WhT` the two pre-transposed weight matrices, and `b` the folded bias row broadcast down the tile.
  Each matrix product accumulates into a zero block, so it is the plain sum over the 1024 contracted features.
-/
import proofs.«146247_j12197707120743_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.LstmCell.Body

open Cert.KernelIdeal Cert.KernelIdeal.Gen
open Idealize.ShloMosaic Idealize.ShloMosaic.ValueIdx

/-- The body's one contraction: [512, 1024] times [1024, 4096], contracting the 1024 features. -/
abbrev dotXW : DotDims S512x1024 S1024x4096 S512x4096 := dot_S512x1024_S1024x4096_S512x4096_1_0_0_1_n_n

/-- The left operand is read on the output's row … -/
theorem lhs_row (i : S512x4096.Idx) (c : dotXW.contr.Idx) : (dotXW.lhsIdx i c 0).val = (i 0).val := by
  unfold DotDims.lhsIdx
  rw [dif_neg (show ¬(0 : Fin S512x1024.rank) ∈ dotXW.lhsBatch by decide),
    dif_pos (show (0 : Fin S512x1024.rank) ∈ dotXW.lhsNonContracting by decide)]
  rfl
/-- … at the contracted feature; -/
theorem lhs_feature (i : S512x4096.Idx) (c : dotXW.contr.Idx) : (dotXW.lhsIdx i c 1).val = (c ⟨0, by decide⟩).val :=
  dotXW.lhsIdx_val_of_single rfl i c
/-- the right operand at the contracted feature … -/
theorem rhs_feature (i : S512x4096.Idx) (c : dotXW.contr.Idx) : (dotXW.rhsIdx i c 0).val = (c ⟨0, by decide⟩).val :=
  dotXW.rhsIdx_val_of_single rfl i c
/-- … on the output's column. -/
theorem rhs_col (i : S512x4096.Idx) (c : dotXW.contr.Idx) : (dotXW.rhsIdx i c 1).val = (i 1).val := by
  unfold DotDims.rhsIdx
  rw [dif_neg (show ¬(1 : Fin S1024x4096.rank) ∈ dotXW.rhsBatch by decide),
    dif_pos (show (1 : Fin S1024x4096.rank) ∈ dotXW.rhsNonContracting by decide)]
  rfl

/-- A matrix product into the zero block, at (p, q): the sum over the 1024 features of row `p` of the left operand
    times column `q` of the right. -/
theorem matmul_at (L : FVec Ideal S512x1024 .bf16) (R : FVec Ideal S1024x4096 .bf16) (p : Fin 512) (q : Fin 4096) :
    matmul dotXW none L R (constant (F := Ideal) S512x4096 .f32 0x00000000#32) (ix2 p q)
      = ∑ k : Fin 1024, L (ix2 p k) * R (ix2 k q) := by
  simp only [matmul]
  rw [Ideal.matmul_constant_zero_apply, ← Equiv.sum_comp (contrEquiv1 dotXW 1024 rfl rfl).symm]
  refine Finset.sum_congr rfl fun k _ => ?_
  have hk := contrEquiv1_symm_val dotXW 1024 rfl rfl k
  have el : dotXW.lhsIdx (ix2 p q) ((contrEquiv1 dotXW 1024 rfl rfl).symm k) = ix2 p k :=
    funext fun a => Fin.ext (by
      match a with
      | ⟨0, _⟩ => exact lhs_row _ _
      | ⟨1, _⟩ => exact (lhs_feature _ _).trans hk)
  have er : dotXW.rhsIdx (ix2 p q) ((contrEquiv1 dotXW 1024 rfl rfl).symm k) = ix2 k q :=
    funext fun a => Fin.ext (by
      match a with
      | ⟨0, _⟩ => exact (rhs_feature _ _).trans hk
      | ⟨1, _⟩ => exact rhs_col _ _)
  rw [el, er]

/-- The bias row, cast to its own shape and broadcast down the 512 rows of the tile, at (p, q) is its entry `q`. -/
theorem biasRow_at (b : FVec Ideal S1x4096 .f32) (h1 : S1x4096.ShapeCasts S1x4096) (h2 : S1x4096.Broadcasts S512x4096)
    (p : Fin 512) (q : Fin 4096) :
    broadcastTo S512x4096 (shapeCast S1x4096 b h1) h2 (ix2 p q) = b (ix2 (0 : Fin 1) q) := by
  rw [shapeCast_self]
  exact broadcastTo_1b_ab_apply b h2 p q

/-- THE PRE-ACTIVATION PAYLOAD at (p, q): the two products' sums, then the bias entry. -/
theorem gates_at (P0 P1 : FVec Ideal S512x1024 .f32) (P2 P3 : FVec Ideal S1024x4096 .bf16) (P4 : FVec Ideal S1x4096 .f32)
    (p : Fin 512) (q : Fin 4096) :
    k0_pay1 (F := Ideal) P0 P1 P2 P3 P4 (ix2 p q)
      = (∑ k : Fin 1024, P0 (ix2 p k) * P2 (ix2 k q) + ∑ k : Fin 1024, P1 (ix2 p k) * P3 (ix2 k q))
          + P4 (ix2 (0 : Fin 1) q) := by
  unfold k0_pay1
  rw [addf_apply, addf_apply, matmul_at, matmul_at, biasRow_at, shapeCast_self, shapeCast_self]
  rfl

end Cert.LstmCell.Body

end
-- ==== Proof.HostPrefix.lean ====
/-
  What the kernel's region finds in the three arrays the host computes before it.

  Before the launch the host transposes each [4096, 1024] weight matrix to [1024, 4096] (and rounds it to bf16, the
  identity on the extended reals), and adds the two bias vectors and views the sum as one row. So at the region's
  entry

      WxT[k, q] = Wx[q, k],   WhT[k, q] = Wh[q, k],   b[0, q] = bx[q] + bh[q].
-/
import proofs.«146247_j12197707120743_2_alg».proof.Proof.Gen.KernelIdeal.Frame
import Idealize.ShloMosaic.Lib.StableHlo.Run
import Idealize.ShloMosaic.Lib.ValueLayout

noncomputable section

namespace Cert.LstmCell.Host

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The first weight operand as the region finds it: the transpose of `Wx`. -/
theorem wxT_eq (c : Dev nD) :
    (V m c main_v1 : S1024x4096.Idx → EReal)
      = truncf (F := Ideal) .bf16 (transpose S1024x4096 [1, 0] (m ((c : Thread nD τ).loc main_arg3))
          transposes_S4096x1024_S1024x4096_1_0) bitsLt_bf16_f32 := by
  dsimp only [V, hostOps0]
  after_results

/-- The second weight operand as the region finds it: the transpose of `Wh`. -/
theorem whT_eq (c : Dev nD) :
    (V m c main_v3 : S1024x4096.Idx → EReal)
      = truncf (F := Ideal) .bf16 (transpose S1024x4096 [1, 0] (m ((c : Thread nD τ).loc main_arg5))
          transposes_S4096x1024_S1024x4096_1_0) bitsLt_bf16_f32 := by
  dsimp only [V, hostOps0]
  after_results

/-- The bias operand as the region finds it: the two bias vectors added, viewed as one row. -/
theorem bias_eq (c : Dev nD) :
    (V m c main_v5 : S1x4096.Idx → EReal)
      = shapeCast S1x4096 (addf (F := Ideal) (φ := .f32) (m ((c : Thread nD τ).loc main_arg4))
          (m ((c : Thread nD τ).loc main_arg6))) shapeCasts_S4096_S1x4096 := by
  dsimp only [V, hostOps0]
  after_results
  rfl

/-- `WxT[k, q] = Wx[q, k]`. -/
theorem wxT_at (c : Dev nD) (k : Fin 1024) (q : Fin 4096) :
    (V m c main_v1 : S1024x4096.Idx → EReal) (ix2 k q)
      = (m ((c : Thread nD τ).loc main_arg3) : S4096x1024.Idx → EReal) (ix2 q k) := by
  rw [wxT_eq]
  exact transpose_ix2_apply _ _ k q

/-- `WhT[k, q] = Wh[q, k]`. -/
theorem whT_at (c : Dev nD) (k : Fin 1024) (q : Fin 4096) :
    (V m c main_v3 : S1024x4096.Idx → EReal) (ix2 k q)
      = (m ((c : Thread nD τ).loc main_arg5) : S4096x1024.Idx → EReal) (ix2 q k) := by
  rw [whT_eq]
  exact transpose_ix2_apply _ _ k q

/-- `b[0, q] = bx[q] + bh[q]`. -/
theorem bias_at (c : Dev nD) (q : Fin 4096) :
    (V m c main_v5 : S1x4096.Idx → EReal) (ix2 (0 : Fin 1) q)
      = FloatOps.addf (F := Ideal) (φ := .f32) (m ((c : Thread nD τ).loc main_arg4) (ix1 q))
          (m ((c : Thread nD τ).loc main_arg6) (ix1 q)) := by
  rw [bias_eq]
  exact shapeCast_a_1a_apply _ _ 0 q

end Cert.LstmCell.Host

end
-- ==== Proof.Tiles.lean ====
/-
  Batch tile `t` of the kernel, read against the whole argument arrays.

  The grid has 16 points; at point `t` the three activation windows (x, c, h) and the two output windows hold rows
  512·t … 512·t + 511 of their [8192, 1024] arrays, while the two transposed weight matrices and the bias row are
  whole at every point. Hence row `p` of tile `t` is batch row 512·t + p, the pre-activation payload of the tile is
  the specification's `preact` on that batch row, and the two stores leave the specification's new cell state and
  new hidden state on the tile's rows.
-/
import proofs.«146247_j12197707120743_2_alg».proof.Proof.OutBlocks
import proofs.«146247_j12197707120743_2_alg».proof.Proof.GatePayload
import proofs.«146247_j12197707120743_2_alg».proof.Proof.HostPrefix

noncomputable section

namespace Cert.LstmCell.Tiles

open Cert.KernelIdeal Cert.KernelIdeal.Gen Cert.LstmCell
open Idealize.ShloMosaic Idealize.ShloMosaic.TcCoe Idealize.SL.Sem Idealize.ShloMosaic.ValueIdx

variable (m : (ℓ : Loc nD τ sig) → Buf (Elt Ideal) ℓ)

/-! ## The seven argument arrays as launched, as plain arrays of extended reals -/

abbrev argX (c : Dev nD) : SAct.Idx → EReal := m ((c : Thread nD τ).loc main_arg0)
abbrev argC (c : Dev nD) : SAct.Idx → EReal := m ((c : Thread nD τ).loc main_arg1)
abbrev argH (c : Dev nD) : SAct.Idx → EReal := m ((c : Thread nD τ).loc main_arg2)
abbrev argWx (c : Dev nD) : SWgt.Idx → EReal := m ((c : Thread nD τ).loc main_arg3)
abbrev argBx (c : Dev nD) : SBias.Idx → EReal := m ((c : Thread nD τ).loc main_arg4)
abbrev argWh (c : Dev nD) : SWgt.Idx → EReal := m ((c : Thread nD τ).loc main_arg5)
abbrev argBh (c : Dev nD) : SBias.Idx → EReal := m ((c : Thread nD τ).loc main_arg6)

/-- The new cell state of the launch arguments: what the first result array should end holding. -/
abbrev cellOut (c : Dev nD) : SAct.Idx → EReal :=
  cellState (argX m c) (argC m c) (argH m c) (argWx m c) (argBx m c) (argWh m c) (argBh m c)
/-- The new hidden state of the launch arguments: what the second result array should end holding. -/
abbrev hiddenOut (c : Dev nD) : SAct.Idx → EReal :=
  hidden (argX m c) (argC m c) (argH m c) (argWx m c) (argBx m c) (argWh m c) (argBh m c)

/-! ## The grid -/

theorem point_lt (t : Fin cfg0.N) : t.val < 16 := by
  have h : t.val < cfg0.N := t.isLt
  have hN : cfg0.N = 16 := N_0
  omega

/-- Row `p` of batch tile `t` is batch row 512·t + p. -/
def tileRow (t : Fin cfg0.N) (p : Fin 512) : Fin 8192 :=
  ⟨t.val * 512 + p.val, by have := point_lt t; have := p.isLt; omega⟩

/-- The printed index maps, decided over the 16 grid points: the activation and output windows sit on row block
    `t`, the weight and bias windows on block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## Each input window's tile, read at an entry -/

/-- The `x` tile: rows 512·t … of `x_current`. -/
theorem xTile_at (c : Dev nD) (t : Fin cfg0.N) (p : Fin 512) (k : Fin 1024) :
    (iblk m c 0 t : S512x1024.Idx → EReal) (ix2 p k) = argX m c (ix2 (tileRow t p) k) := by
  obtain ⟨e0, e1, -⟩ := idx_facts t
  have e : ((cfg0.win 0).blk t).view.emb (ix2 p k) = (ix2 (tileRow t p) k : S8192x1024.Idx) := by
    funext a; apply Fin.ext
    match a with
    | ⟨0, _⟩ => show win0_0.index t (0 : Fin 2) * 512 + 1 * p.val = t.val * 512 + p.val; rw [e0]; omega
    | ⟨1, _⟩ => show win0_0.index t (1 : Fin 2) * 1024 + 1 * k.val = k.val; rw [e1]; omega
  show V m c main_arg0 (((cfg0.win 0).blk t).view.emb (ix2 p k)) = _
  rw [e, V_main_arg0]

/-- The `c` tile: rows 512·t … of `c_previous`. -/
theorem cTile_at (c : Dev nD) (t : Fin cfg0.N) (p : Fin 512) (k : Fin 1024) :
    (iblk m c 1 t : S512x1024.Idx → EReal) (ix2 p k) = argC m c (ix2 (tileRow t p) k) := by
  obtain ⟨-, -, e0, e1, -⟩ := idx_facts t
  have e : ((cfg0.win 1).blk t).view.emb (ix2 p k) = (ix2 (tileRow t p) k : S8192x1024.Idx) := by
    funext a; apply Fin.ext
    match a with
    | ⟨0, _⟩ => show win0_1.index t (0 : Fin 2) * 512 + 1 * p.val = t.val * 512 + p.val; rw [e0]; omega
    | ⟨1, _⟩ => show win0_1.index t (1 : Fin 2) * 1024 + 1 * k.val = k.val; rw [e1]; omega
  show V m c main_arg1 (((cfg0.win 1).blk t).view.emb (ix2 p k)) = _
  rw [e, V_main_arg1]

/-- The `h` tile: rows 512·t … of `h_previous`. -/
theorem hTile_at (c : Dev nD) (t : Fin cfg0.N) (p : Fin 512) (k : Fin 1024) :
    (iblk m c 2 t : S512x1024.Idx → EReal) (ix2 p k) = argH m c (ix2 (tileRow t p) k) := by
  obtain ⟨-, -, -, -, e0, e1, -⟩ := idx_facts t
  have e : ((cfg0.win 2).blk t).view.emb (ix2 p k) = (ix2 (tileRow t p) k : S8192x1024.Idx) := by
    funext a; apply Fin.ext
    match a with
    | ⟨0, _⟩ => show win0_2.index t (0 : Fin 2) * 512 + 1 * p.val = t.val * 512 + p.val; rw [e0]; omega
    | ⟨1, _⟩ => show win0_2.index t (1 : Fin 2) * 1024 + 1 * k.val = k.val; rw [e1]; omega
  show V m c main_arg2 (((cfg0.win 2).blk t).view.emb (ix2 p k)) = _
  rw [e, V_main_arg2]

/-- The first weight window is whole at every point: `WxT[k, q] = Wx[q, k]`. -/
theorem wxTile_at (c : Dev nD) (t : Fin cfg0.N) (k : Fin 1024) (q : Fin 4096) :
    (iblk m c 3 t : S1024x4096.Idx → EReal) (ix2 k q) = argWx m c (ix2 q k) := by
  obtain ⟨-, -, -, -, -, -, e0, e1, -⟩ := idx_facts t
  have e : ((cfg0.win 3).blk t).view.emb (ix2 k q) = (ix2 k q : S1024x4096.Idx) := by
    funext a; apply Fin.ext
    match a with
    | ⟨0, _⟩ => show win0_3.index t (0 : Fin 2) * 1024 + 1 * k.val = k.val; rw [e0]; omega
    | ⟨1, _⟩ => show win0_3.index t (1 : Fin 2) * 4096 + 1 * q.val = q.val; rw [e1]; omega
  show V m c main_v1 (((cfg0.win 3).blk t).view.emb (ix2 k q)) = _
  rw [e]
  exact Host.wxT_at m c k q

/-- The second weight window is whole at every point: `WhT[k, q] = Wh[q, k]`. -/
theorem whTile_at (c : Dev nD) (t : Fin cfg0.N) (k : Fin 1024) (q : Fin 4096) :
    (iblk m c 4 t : S1024x4096.Idx → EReal) (ix2 k q) = argWh m c (ix2 q k) := by
  obtain ⟨-, -, -, -, -, -, -, -, e0, e1, -⟩ := idx_facts t
  have e : ((cfg0.win 4).blk t).view.emb (ix2 k q) = (ix2 k q : S1024x4096.Idx) := by
    funext a; apply Fin.ext
    match a with
    | ⟨0, _⟩ => show win0_4.index t (0 : Fin 2) * 1024 + 1 * k.val = k.val; rw [e0]; omega
    | ⟨1, _⟩ => show win0_4.index t (1 : Fin 2) * 4096 + 1 * q.val = q.val; rw [e1]; omega
  show V m c main_v3 (((cfg0.win 4).blk t).view.emb (ix2 k q)) = _
  rw [e]
  exact Host.whT_at m c k q

/-- The bias window is whole at every point: its one row holds `bx[q] + bh[q]`. -/
theorem bTile_at (c : Dev nD) (t : Fin cfg0.N) (q : Fin 4096) :
    (iblk m c 5 t : S1x4096.Idx → EReal) (ix2 (0 : Fin 1) q) = argBx m c (ix1 q) + argBh m c (ix1 q) := by
  obtain ⟨-, -, -, -, -, -, -, -, -, -, e0, e1, -⟩ := idx_facts t
  have e : ((cfg0.win 5).blk t).view.emb (ix2 (0 : Fin 1) q) = (ix2 (0 : Fin 1) q : S1x4096.Idx) := by
    funext a; apply Fin.ext
    match a with
    | ⟨0, _⟩ => show win0_5.index t (0 : Fin 2) * 1 + 1 * 0 = 0; rw [e0]
    | ⟨1, _⟩ => show win0_5.index t (1 : Fin 2) * 4096 + 1 * q.val = q.val; rw [e1]; omega
  show V m c main_v5 (((cfg0.win 5).blk t).view.emb (ix2 (0 : Fin 1) q)) = _
  rw [e]
  exact Host.bias_at m c q

/-! ## The tile computes the specification on its batch rows -/

/-- The pre-activation payload of tile `t` at (p, q) is the specification's pre-activation of batch row 512·t + p. -/
theorem tileGates (c : Dev nD) (t : Fin cfg0.N) (p : Fin 512) (q : Fin 4096) :
    k0_pay1 (F := Ideal) (iblk m c 0 t) (iblk m c 2 t) (iblk m c 3 t) (iblk m c 4 t) (iblk m c 5 t) (ix2 p q)
      = preact (argX m c) (argH m c) (argWx m c) (argWh m c) (argBx m c) (argBh m c) (tileRow t p) q := by
  rw [Body.gates_at (iblk m c 0 t) (iblk m c 2 t) (iblk m c 3 t) (iblk m c 4 t) (iblk m c 5 t) p q]
  unfold preact
  refine congrArg₂ (fun a b : EReal => a + b)
    (congrArg₂ (fun a b : EReal => a + b) (Finset.sum_congr rfl fun k _ => ?_) (Finset.sum_congr rfl fun k _ => ?_))
    (bTile_at m c t q)
  · rw [xTile_at m c t p k, wxTile_at m c t k q]
  · rw [hTile_at m c t p k, whTile_at m c t k q]

/-- What the first store leaves on row `p` of tile `t` is the new cell state of batch row 512·t + p. -/
theorem cellTile (c : Dev nD) (t : Fin cfg0.N) (p : Fin 512) (j : Fin 1024) :
    out0_6 (F := Ideal) (iblk m c 0 t) (iblk m c 1 t) (iblk m c 2 t) (iblk m c 3 t) (iblk m c 4 t) (iblk m c 5 t) (ix2 p j)
      = cellOut m c (ix2 (tileRow t p) j) := by
  rw [Body.cellOut_at (iblk m c 0 t) (iblk m c 1 t) (iblk m c 2 t) (iblk m c 3 t) (iblk m c 4 t) (iblk m c 5 t) p j,
    tileGates, tileGates, tileGates, cTile_at m c t p j]
  rfl

/-- What the second store leaves on row `p` of tile `t` is the new hidden state of batch row 512·t + p. -/
theorem hiddenTile (c : Dev nD) (t : Fin cfg0.N) (p : Fin 512) (j : Fin 1024) :
    out0_7 (F := Ideal) (iblk m c 0 t) (iblk m c 1 t) (iblk m c 2 t) (iblk m c 3 t) (iblk m c 4 t) (iblk m c 5 t) (ix2 p j)
      = hiddenOut m c (ix2 (tileRow t p) j) := by
  rw [Body.hiddenOut_at (iblk m c 0 t) (iblk m c 1 t) (iblk m c 2 t) (iblk m c 3 t) (iblk m c 4 t) (iblk m c 5 t) p j,
    tileGates, tileGates, tileGates, tileGates, cTile_at m c t p j]
  rfl

end Cert.LstmCell.Tiles

end
-- ==== Proof.KernelValue.lean ====
/-
  The kernel's two result arrays after the run.

  Grid point `t` writes back, to each result array, the tile on rows 512·t … 512·t + 511; by the tile lemmas that tile
  is the specification's array read through the same rows. The 16 tiles cover the 8192 rows (row `r` lies in tile
  r / 512), so after the run the first result array is the new cell state and the second the new hidden state of the
  launch arguments, and the arguments are unchanged.
-/
import proofs.«146247_j12197707120743_2_alg».proof.Proof.Tiles

noncomputable section

namespace Cert.LstmCell.Kernel

open Cert.KernelIdeal Cert.KernelIdeal.Gen Cert.LstmCell Cert.LstmCell.Tiles
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The first result: the new cell state -/

/-- Entry (p, j) of the tile point `t` writes back sits at row 512·t + p, column j of the result array. -/
theorem cellTile_emb (t : Fin cfg0.N) (p : Fin 512) (j : Fin 1024) :
    ((cfg0.win 6).blk t).view.emb (ix2 p j) = (ix2 (tileRow t p) j : S8192x1024.Idx) := by
  obtain ⟨-, -, -, -, -, -, -, -, -, -, -, -, e0, e1, -⟩ := idx_facts t
  funext a; apply Fin.ext
  match a with
  | ⟨0, _⟩ => show win0_6.index t (0 : Fin 2) * 512 + 1 * p.val = t.val * 512 + p.val; rw [e0]; omega
  | ⟨1, _⟩ => show win0_6.index t (1 : Fin 2) * 1024 + 1 * j.val = j.val; rw [e1]; omega

/-- WHAT POINT `t` WRITES BACK to the first result is tile `t` of the new cell state. -/
theorem flushedCell_eq (c : Dev nD) (t : Fin cfg0.N) :
    (dats m 0 c).flushed 6 t = ((cfg0.win 6).blk t).view.read (Elt Ideal) (cellOut m c) := by
  rw [Cert.KernelIdeal.Value.flushed6 m c t]
  funext y
  obtain ⟨p, j, rfl⟩ : ∃ (p : Fin 512) (j : Fin 1024), y = ix2 p j :=
    ⟨y 0, y 1, eq_ix2 (n0 := 512) (n1 := 1024) y⟩
  show out0_6 (F := Ideal) (iblk m c 0 t) (iblk m c 1 t) (iblk m c 2 t) (iblk m c 3 t) (iblk m c 4 t) (iblk m c 5 t) (ix2 p j)
    = cellOut m c (((cfg0.win 6).blk t).view.emb (ix2 p j))
  rw [cellTile_emb]
  exact cellTile m c t p j

/-- An index of the first result array is in point `t`'s tile iff each coordinate is in the tile's range. -/
theorem mem_cellTile (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v6_0).slice (win0_6.rect t)).set ↔ _
  rw [View.set_slice_whole, Rect.mem_set_unit]
  exact Iff.rfl

/-- Every index of the first result array is in the tile of the point numbered by its row divided by 512. -/
theorem coverCell (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, -, -, -, -, -, -, e0, e1, -⟩ := idx_facts t
  refine ⟨t, flush0_6 t, ?_⟩
  rw [mem_cellTile]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 1024 ≤ (i 1).val ∧ (i 1).val < win0_6.index t (1 : Fin 2) * 1024 + 1024
    rw [e1]; omega

/-- THE FIRST RESULT ARRAY after the run is the new cell state of the launch arguments. -/
theorem finalCell (c : Dev nD) : (dats m 0 c).arrAt 6 cfg0.N = cellOut m c :=
  (dats m 0 c).arrAt_eq_of_cover 6 (cellOut m c) (fun t _ => flushedCell_eq m c t) coverCell

/-! ## The second result: the new hidden state -/

/-- Entry (p, j) of the tile point `t` writes back sits at row 512·t + p, column j of the result array. -/
theorem hiddenTile_emb (t : Fin cfg0.N) (p : Fin 512) (j : Fin 1024) :
    ((cfg0.win 7).blk t).view.emb (ix2 p j) = (ix2 (tileRow t p) j : S8192x1024.Idx) := by
  obtain ⟨-, -, -, -, -, -, -, -, -, -, -, -, -, -, e0, e1⟩ := idx_facts t
  funext a; apply Fin.ext
  match a with
  | ⟨0, _⟩ => show win0_7.index t (0 : Fin 2) * 512 + 1 * p.val = t.val * 512 + p.val; rw [e0]; omega
  | ⟨1, _⟩ => show win0_7.index t (1 : Fin 2) * 1024 + 1 * j.val = j.val; rw [e1]; omega

/-- WHAT POINT `t` WRITES BACK to the second result is tile `t` of the new hidden state. -/
theorem flushedHidden_eq (c : Dev nD) (t : Fin cfg0.N) :
    (dats m 0 c).flushed 7 t = ((cfg0.win 7).blk t).view.read (Elt Ideal) (hiddenOut m c) := by
  rw [Cert.KernelIdeal.Value.flushed7 m c t]
  funext y
  obtain ⟨p, j, rfl⟩ : ∃ (p : Fin 512) (j : Fin 1024), y = ix2 p j :=
    ⟨y 0, y 1, eq_ix2 (n0 := 512) (n1 := 1024) y⟩
  show out0_7 (F := Ideal) (iblk m c 0 t) (iblk m c 1 t) (iblk m c 2 t) (iblk m c 3 t) (iblk m c 4 t) (iblk m c 5 t) (ix2 p j)
    = hiddenOut m c (((cfg0.win 7).blk t).view.emb (ix2 p j))
  rw [hiddenTile_emb]
  exact hiddenTile m c t p j

/-- An index of the second result array is in point `t`'s tile iff each coordinate is in the tile's range. -/
theorem mem_hiddenTile (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v6_1).slice (win0_7.rect t)).set ↔ _
  rw [View.set_slice_whole, Rect.mem_set_unit]
  exact Iff.rfl

/-- Every index of the second result array is in the tile of the point numbered by its row divided by 512. -/
theorem coverHidden (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, -, -, -, -, -, -, -, -, e0, e1⟩ := idx_facts t
  refine ⟨t, flush0_7 t, ?_⟩
  rw [mem_hiddenTile]
  intro a
  match a with
  | ⟨0, _⟩ =>
    show win0_7.index t (0 : Fin 2) * 512 ≤ (i 0).val ∧ (i 0).val < win0_7.index t (0 : Fin 2) * 512 + 512
    rw [e0, ht]; omega
  | ⟨1, _⟩ =>
    show win0_7.index t (1 : Fin 2) * 1024 ≤ (i 1).val ∧ (i 1).val < win0_7.index t (1 : Fin 2) * 1024 + 1024
    rw [e1]; omega

/-- THE SECOND RESULT ARRAY after the run is the new hidden state of the launch arguments. -/
theorem finalHidden (c : Dev nD) : (dats m 0 c).arrAt 7 cfg0.N = hiddenOut m c :=
  (dats m 0 c).arrAt_eq_of_cover 7 (hiddenOut m c) (fun t _ => flushedHidden_eq m c t) coverHidden

/-! ## The run, read -/

/-- Every weakly fair execution of the idealized kernel program terminates with the two result arrays at the new
    cell state and the new hidden state of the launch arguments, and the arguments unchanged. -/
theorem run : θ_run defs (onTc (τ := τ) (main (F := Ideal))) ⟨m, fun _ => 0, ρ⟩ fun r => ∀ c : Dev nD,
      r.2.mem ((c : Thread nD τ).loc main_v6_0) = cellOut m c
      ∧ r.2.mem ((c : Thread nD τ).loc main_v6_1) = hiddenOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (finalCell m c), (h c).2.1.trans (finalHidden m c), (h c).2.2⟩)
    (Cert.KernelIdeal.Value.run_blocks m ρ)

end Cert.LstmCell.Kernel

end
-- ==== Proof.LibSigmoid.lean ====
/-
  GENERAL LEMMAS: the sigmoid on the extended reals.

  A host program spells σ(z) as the quotient 1 / (1 + exp (−z)), with the constant 1.0 given by its f32 bit pattern;
  a kernel applies the one logistic operation. On the extended reals the two are the same function at every
  argument, the infinities included (σ(−∞) = 0, σ(+∞) = 1), because the logistic function is defined there as that
  quotient. Nothing here depends on a shape or a program.
-/
import Idealize.ShloMosaic.PureOps.Ideal

noncomputable section

namespace Cert.Lib.Sigmoid

open Idealize.ShloMosaic

/-- The f32 bit pattern of `1.0` denotes the real number one. -/
theorem one_f32 : Ideal.ofBits .f32 0x3F800000#32 = 1 := by
  simp [Ideal.ofBits, Ideal.ieee, -EReal.coe_mul]; norm_num

/-- The host's spelling of the sigmoid — one over one plus the exponential of the negated argument, each constant
    one the pattern of `1.0` — is the logistic function, at the infinities too. -/
theorem hostSigmoid_eq (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
      = Ideal.logistic z := by
  rw [one_f32]; rfl

/-- The kernel's logistic operation and the host's logistic operation are that same function. -/
theorem logistic_eq (z : EReal) :
    FloatOps.logistic (F := Ideal) (φ := .f32) z = Ideal.logistic z
      ∧ FloatOps.hostUnary (F := Ideal) (φ := .f32) .logistic z = Ideal.logistic z := ⟨rfl, rfl⟩

end Cert.Lib.Sigmoid

end
-- ==== Proof.RefIsSpec.lean ====
/-
  The reference program computes the specification.

  Its stages are read one operation at a time (the generated read-at-an-index lemmas): the stacked pre-activation
  `%8` at (r, g) is the four summands of `preact` added left to right; each gate is a 1024-column slice of it; the
  sigmoid is spelt 1 / (1 + exp (−z)); the two results are `cellState` and `hidden`.
-/
import proofs.«146247_j12197707120743_2_alg».proof.Proof.Gen.ReferenceIdeal.Read
import proofs.«146247_j12197707120743_2_alg».proof.Proof.Spec
import proofs.«146247_j12197707120743_2_alg».proof.Proof.LibSigmoid

noncomputable section

namespace Cert.LstmCell.Ref

open Cert.ReferenceIdeal Cert.ReferenceIdeal.Read Cert.LstmCell
open Idealize.ShloMosaic Idealize.ShloMosaic.ValueIdx

variable (x0 x1 x2 : (⟨S8192x1024, .f32⟩ : BufTy).Contents (Elt Ideal))
  (x3 : (⟨S4096x1024, .f32⟩ : BufTy).Contents (Elt Ideal)) (x4 : (⟨S4096, .f32⟩ : BufTy).Contents (Elt Ideal))
  (x5 : (⟨S4096x1024, .f32⟩ : BufTy).Contents (Elt Ideal)) (x6 : (⟨S4096, .f32⟩ : BufTy).Contents (Elt Ideal))

/-- The stacked pre-activation at row `r`, gate column `g`: the first product's row-by-row dot, the first bias
    broadcast down the rows, the second product, the second bias — the specification's `preact` regrouped. -/
theorem gates_at (r : Fin 8192) (g : Fin 4096) :
    val_main_v8 (F := Ideal) x0 x2 x3 x4 x5 x6 (ix2 r g) = preact x0 x2 x3 x5 x4 x6 r g := by
  have el0 : ∀ k : Fin 1024, lidx_main_v0 (ix2 r g) k = ix2 r k := fun k =>
    funext fun a => Fin.ext (by match a with | ⟨0, _⟩ => rfl | ⟨1, _⟩ => rfl)
  have er0 : ∀ k : Fin 1024, ridx_main_v0 (ix2 r g) k = ix2 g k := fun k =>
    funext fun a => Fin.ext (by match a with | ⟨0, _⟩ => rfl | ⟨1, _⟩ => rfl)
  have el4 : ∀ k : Fin 1024, lidx_main_v4 (ix2 r g) k = ix2 r k := fun k =>
    funext fun a => Fin.ext (by match a with | ⟨0, _⟩ => rfl | ⟨1, _⟩ => rfl)
  have er4 : ∀ k : Fin 1024, ridx_main_v4 (ix2 r g) k = ix2 g k := fun k =>
    funext fun a => Fin.ext (by match a with | ⟨0, _⟩ => rfl | ⟨1, _⟩ => rfl)
  have eb4 : idx_main_v1 (idx_main_v2 (ix2 r g)) = ix1 g :=
    funext fun a => Fin.ext (by match a with | ⟨0, _⟩ => rfl)
  have eb6 : idx_main_v6 (idx_main_v7 (ix2 r g)) = ix1 g :=
    funext fun a => Fin.ext (by match a with | ⟨0, _⟩ => rfl)
  rw [val_main_v8_apply, val_main_v5_apply, val_main_v3_apply, val_main_v0_apply, val_main_v4_apply,
    val_main_v2_apply, val_main_v1_apply, val_main_v7_apply, val_main_v6_apply]
  simp only [el0, er0, el4, er4, eb4, eb6, Ideal.addf_def]
  exact preact_leftToRight x0 x2 x3 x5 x4 x6 r g

/-- Where each gate's slice reads the stacked pre-activation: same row, the column moved into the gate's block. -/
theorem slice_input (r : Fin 8192) (j : Fin 1024) : idx_main_v9 (ix2 r j) = ix2 r (gcol 0 j) :=
  funext fun a => Fin.ext (by
    match a with
    | ⟨0, _⟩ => rfl
    | ⟨1, _⟩ => show j.val = 0 * 1024 + j.val; omega)
theorem slice_forget (r : Fin 8192) (j : Fin 1024) : idx_main_v10 (ix2 r j) = ix2 r (gcol 1 j) :=
  funext fun a => Fin.ext (by
    match a with
    | ⟨0, _⟩ => rfl
    | ⟨1, _⟩ => show 1024 + j.val = 1 * 1024 + j.val; omega)
theorem slice_output (r : Fin 8192) (j : Fin 1024) : idx_main_v11 (ix2 r j) = ix2 r (gcol 2 j) :=
  funext fun a => Fin.ext (by
    match a with
    | ⟨0, _⟩ => rfl
    | ⟨1, _⟩ => show 2048 + j.val = 2 * 1024 + j.val; omega)
theorem slice_cand (r : Fin 8192) (j : Fin 1024) : idx_main_v12 (ix2 r j) = ix2 r (gcol 3 j) :=
  funext fun a => Fin.ext (by
    match a with
    | ⟨0, _⟩ => rfl
    | ⟨1, _⟩ => show 3072 + j.val = 3 * 1024 + j.val; omega)

/-- The input gate: the sigmoid of block 0's pre-activation. -/
theorem inputGate_at (r : Fin 8192) (j : Fin 1024) :
    val_main_v18 (F := Ideal) x0 x2 x3 x4 x5 x6 (ix2 r j) = Ideal.logistic (preact x0 x2 x3 x5 x4 x6 r (gcol 0 j)) := by
  rw [val_main_v18_apply, val_main_v17_apply, val_main_cst_0_apply, val_main_v16_apply, val_main_v15_apply,
    val_main_cst_apply, val_main_v14_apply, val_main_v13_apply, val_main_v9_apply, slice_input, gates_at]
  exact Cert.Lib.Sigmoid.hostSigmoid_eq _

/-- The forget gate: the sigmoid of block 1's pre-activation. -/
theorem forgetGate_at (r : Fin 8192) (j : Fin 1024) :
    val_main_v24 (F := Ideal) x0 x2 x3 x4 x5 x6 (ix2 r j) = Ideal.logistic (preact x0 x2 x3 x5 x4 x6 r (gcol 1 j)) := by
  rw [val_main_v24_apply, val_main_v23_apply, val_main_cst_2_apply, val_main_v22_apply, val_main_v21_apply,
    val_main_cst_1_apply, val_main_v20_apply, val_main_v19_apply, val_main_v10_apply, slice_forget, gates_at]
  exact Cert.Lib.Sigmoid.hostSigmoid_eq _

/-- The output gate: the sigmoid of block 2's pre-activation. -/
theorem outputGate_at (r : Fin 8192) (j : Fin 1024) :
    val_main_v30 (F := Ideal) x0 x2 x3 x4 x5 x6 (ix2 r j) = Ideal.logistic (preact x0 x2 x3 x5 x4 x6 r (gcol 2 j)) := by
  rw [val_main_v30_apply, val_main_v29_apply, val_main_cst_4_apply, val_main_v28_apply, val_main_v27_apply,
    val_main_cst_3_apply, val_main_v26_apply, val_main_v25_apply, val_main_v11_apply, slice_output, gates_at]
  exact Cert.Lib.Sigmoid.hostSigmoid_eq _

/-- The candidate: `tanh` of block 3's pre-activation. -/
theorem candidate_at (r : Fin 8192) (j : Fin 1024) :
    val_main_v31 (F := Ideal) x0 x2 x3 x4 x5 x6 (ix2 r j) = Ideal.tanh (preact x0 x2 x3 x5 x4 x6 r (gcol 3 j)) := by
  rw [val_main_v31_apply, val_main_v12_apply, slice_cand, gates_at]
  rfl

/-- The reference's first result is the new cell state. -/
theorem cell_eq : val_main_v34 (F := Ideal) x0 x1 x2 x3 x4 x5 x6 = cellState x0 x1 x2 x3 x4 x5 x6 := by
  funext i
  obtain ⟨r, j, rfl⟩ : ∃ (r : Fin 8192) (j : Fin 1024), i = ix2 r j := ⟨i 0, i 1, eq_ix2 i⟩
  rw [val_main_v34_apply, val_main_v32_apply, val_main_v33_apply, forgetGate_at, inputGate_at, candidate_at]
  rfl

/-- The reference's second result is the new hidden state. -/
theorem hidden_eq : val_main_v36 (F := Ideal) x0 x1 x2 x3 x4 x5 x6 = hidden x0 x1 x2 x3 x4 x5 x6 := by
  funext i
  obtain ⟨r, j, rfl⟩ : ∃ (r : Fin 8192) (j : Fin 1024), i = ix2 r j := ⟨i 0, i 1, eq_ix2 i⟩
  rw [val_main_v36_apply, val_main_v35_apply, outputGate_at, cell_eq]
  rfl

end Cert.LstmCell.Ref

end
-- ==== Proof.lean ====
/-
  One step of an LSTM cell: the tiled kernel against the plain reference, on the extended reals.

  With z = x·Wxᵀ + h·Whᵀ + bx + bh (a [8192, 4096] array of four 1024-column gate blocks: input, forget, output,
  candidate) and σ the logistic function, both programs return

      c' = σ(z_forget) · c + σ(z_input) · tanh (z_candidate),      h' = σ(z_output) · tanh c'.

  The kernel works on 16 batch tiles of 512 rows, multiplies by weight matrices the host has already transposed, and
  adds the two biases to each other before adding them to the products; the reference adds product, bias, product,
  bias from left to right and spells σ(z) as 1 / (1 + exp (−z)). On the extended reals the rounding of the matmul
  operands to bf16 is the identity, each matrix product is the plain sum over the 1024 features, the two groupings
  of the four summands agree because `+` is commutative and associative there (at the infinities too: no
  finiteness of the inputs is used), and the logistic function is by definition the reference's quotient.

  LibSigmoid    the host's quotient 1 / (1 + exp (−z)) is the logistic function (general; no shape, no program)
  Spec          the result as one function of the seven argument arrays (`cellState`, `hidden`)
  RefIsSpec     the reference's two result terms are those functions
  GatePayload   the kernel body's pre-activation block at an entry
  OutBlocks     what the body's two stores leave in the output tiles at an entry
  HostPrefix    what the region finds in the transposed weights and the folded bias
  Tiles         tile `t` of the kernel computes the specification on batch rows 512·t … 512·t + 511
  KernelValue   the tiles cover the result arrays: the kernel's run ends at the specification
  and below the five claims are assembled from the two runs.
-/
import proofs.«146247_j12197707120743_2_alg».proof.Defs
import proofs.«146247_j12197707120743_2_alg».proof.Proof.Gen.Kernel
import proofs.«146247_j12197707120743_2_alg».proof.Proof.Gen.Kernel.Skeleton
import proofs.«146247_j12197707120743_2_alg».proof.Proof.Gen.Kernel.Launch
import proofs.«146247_j12197707120743_2_alg».proof.Proof.Gen.Kernel.Points
import proofs.«146247_j12197707120743_2_alg».proof.Proof.Gen.Kernel.Frame
import proofs.«146247_j12197707120743_2_alg».proof.Proof.Gen.KernelIdeal
import proofs.«146247_j12197707120743_2_alg».proof.Proof.Gen.KernelIdeal.Skeleton
import proofs.«146247_j12197707120743_2_alg».proof.Proof.Gen.KernelIdeal.Launch
import proofs.«146247_j12197707120743_2_alg».proof.Proof.Gen.KernelIdeal.Points
import proofs.«146247_j12197707120743_2_alg».proof.Proof.Gen.KernelIdeal.Frame
import proofs.«146247_j12197707120743_2_alg».proof.Proof.Gen.ReferenceIdeal
import proofs.«146247_j12197707120743_2_alg».proof.Proof.Gen.Pre_finite_inputs
import proofs.«146247_j12197707120743_2_alg».proof.Proof.Gen.KernelIdeal.Value
import proofs.«146247_j12197707120743_2_alg».proof.Proof.Gen.ReferenceIdeal.Run
import proofs.«146247_j12197707120743_2_alg».proof.Proof.Gen.ReferenceIdeal.Read
import proofs.«146247_j12197707120743_2_alg».proof.Proof.KernelValue
import proofs.«146247_j12197707120743_2_alg».proof.Proof.RefIsSpec
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote no operation of the kernel. -/
theorem preserves : Cert.preserves_Kernel_KernelIdeal := trivial

/-- From memories that agree on the seven arguments both programs end with the new cell state and the new hidden
    state of those arguments: the kernel by its tiles, the reference stage by stage. -/
theorem algebraic : Cert.algebraic_KernelIdeal_ReferenceIdeal := by
  intro m ρ m' ρ' _ hagree
  refine ⟨fun c => Cert.LstmCell.Tiles.cellOut m c, fun c => Cert.LstmCell.Tiles.hiddenOut m c,
    Cert.LstmCell.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v34_eq, Cert.LstmCell.Ref.cell_eq, a0, a1, a2, a3, a4, a5, a6]
  · obtain ⟨a0, a1, a2, a3, a4, a5, a6⟩ := hagree c
    rw [Cert.ReferenceIdeal.Read.val_main_v36_eq, Cert.LstmCell.Ref.hidden_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
